-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x256 : Shape := ⟨2, ![2048, 256]⟩
abbrev S256 : Shape := ⟨1, ![256]⟩
abbrev S256x16 : Shape := ⟨2, ![256, 16]⟩
abbrev S16 : Shape := ⟨1, ![16]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S256 : S_.BroadcastsInDim S256 (![] : Fin 0 → Fin S256.rank)
  reducesTo_S256_S_d0 : S256.ReducesTo [0] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S8192x2048 .f32) (main_arg1 : FVec F S2048x256 .f32) (main_arg2 : FVec F S256 .f32) (main_arg3 : FVec F S256x16 .f32) (main_arg4 : FVec F S16 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x16 .f32 := Host.absf main_arg3
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg4 main_v13 main_v16
-- ==== Kernel.lean ====
abbrev S8192x2048 : Shape := ⟨2, ![8192, 2048]⟩
abbrev S2048x256 : Shape := ⟨2, ![2048, 256]⟩
abbrev S256 : Shape := ⟨1, ![256]⟩
abbrev S256x16 : Shape := ⟨2, ![256, 16]⟩
abbrev S16 : Shape := ⟨1, ![16]⟩
abbrev S1x256 : Shape := ⟨2, ![1, 256]⟩
abbrev S1x16 : Shape := ⟨2, ![1, 16]⟩
abbrev S8192x16 : Shape := ⟨2, ![8192, 16]⟩
abbrev S512x2048 : Shape := ⟨2, ![512, 2048]⟩
abbrev S512x16 : Shape := ⟨2, ![512, 16]⟩
abbrev S512x256 : Shape := ⟨2, ![512, 256]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048x256, .f32⟩
  | .hbm, ⟨2, _⟩ => ⟨S256, .f32⟩
  | .hbm, ⟨3, _⟩ => ⟨S256x16, .f32⟩
  | .hbm, ⟨4, _⟩ => ⟨S16, .f32⟩
  | .hbm, ⟨5, _⟩ => ⟨S1x256, .f32⟩
  | .hbm, ⟨6, _⟩ => ⟨S1x16, .f32⟩
  | .hbm, ⟨7, _⟩ => ⟨S8192x16, .f32⟩
  | .hbm, ⟨8, _⟩ => ⟨S8192x16, .f32⟩
  | .local _ .vmem, ⟨0, _⟩ => ⟨S512x2048, .f32⟩
  | .local _ .vmem, ⟨1, _⟩ => ⟨S512x2048, .f32⟩
  | .local _ .vmem, ⟨2, _⟩ => ⟨S2048x256, .f32⟩
  | .local _ .vmem, ⟨3, _⟩ => ⟨S1x256, .f32⟩
  | .local _ .vmem, ⟨4, _⟩ => ⟨S256x16, .f32⟩
  | .local _ .vmem, ⟨5, _⟩ => ⟨S1x16, .f32⟩
  | .local _ .vmem, ⟨6, _⟩ => ⟨S512x16, .f32⟩
  | .local _ .vmem, ⟨7, _⟩ => ⟨S512x16, .f32⟩
  | .local _ .vmem, ⟨8, _⟩ => ⟨S512x16, .f32⟩
  | .local _ .vmem, ⟨9, _⟩ => ⟨S512x16, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S256_S1x256 : S256.ShapeCasts S1x256
  shapeCasts_S16_S1x16 : S16.ShapeCasts S1x16
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x16_S256x16_0_0 : ∀ a, (![0, 0] : Fin 2 → Nat) a + S256x16.size a ≤ S256x16.size a
  h_S256x16 : 0 < S256x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S512x16 : S1x16.Broadcasts S512x16
  inb_S512x16_S512x16_0_0 : ∀ a, (![0, 0] : Fin 2 → Nat) a + S512x16.size a ≤ S512x16.size a
  h_S512x16 : 0 < S512x16.numel
  reduces_S512x16_S512 : S512x16.Reduces [1] S512
  shapeCasts_S512_S512x1 : S512.ShapeCasts S512x1
  broadcasts_S512x1_S512x16 : S512x1.Broadcasts S512x16
  dot_S512x2048_S2048x256_S512x256_1_0_0_1_n_n_wf : DotDims.WF S512x2048 S2048x256 S512x256 [1] [0] [0] [1] [] []
  dot_S512x256_S256x16_S512x16_1_0_0_1_n_n_wf : DotDims.WF S512x256 S256x16 S512x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x256.size a
  hwx0_1 : ∀ i : grid0.Coords, EltTy.bits .f32 = 32 ∨ (Rect.block (s := S2048x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x16.size a ≤ S256x16.size a
  hwx0_3 : ∀ i : grid0.Coords, EltTy.bits .f32 = 32 ∨ (Rect.block (s := S256x16) S256x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x16.size a ≤ S8192x16.size a
  hwx0_5 : ∀ i : grid0.Coords, EltTy.bits .f32 = 32 ∨ (Rect.block (s := S8192x16) S512x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x16.size a ≤ S8192x16.size a
  hwx0_6 : ∀ i : grid0.Coords, EltTy.bits .f32 = 32 ∨ (Rect.block (s := S8192x16) S512x16.size (cc0_transform_6 i) (hinb0_6 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x256_S256x16_S512x16_1_0_0_1_n_n : DotDims S512x256 S256x16 S512x16 where
  lhsContracting := [1]
  rhsContracting := [0]
  lhsNonContracting := [0]
  rhsNonContracting := [1]
  lhsBatch := []
  rhsBatch := []
  wf := dot_S512x256_S256x16_S512x16_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S512x16.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S512x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x256 : Shape := ⟨2, ![2048, 256]⟩
abbrev S256 : Shape := ⟨1, ![256]⟩
abbrev S256x16 : Shape := ⟨2, ![256, 16]⟩
abbrev S16 : Shape := ⟨1, ![16]⟩
abbrev S8192x256 : Shape := ⟨2, ![8192, 256]⟩
abbrev S1x256 : Shape := ⟨2, ![1, 256]⟩
abbrev S_ : Shape := ⟨0, ![]⟩
abbrev S8192x16 : Shape := ⟨2, ![8192, 16]⟩
abbrev S1x16 : Shape := ⟨2, ![1, 16]⟩
abbrev S8192 : Shape := ⟨1, ![8192]⟩
abbrev S8192x1 : Shape := ⟨2, ![8192, 1]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x256, .f32⟩
  | .hbm, ⟨2, _⟩ => ⟨S256, .f32⟩
  | .hbm, ⟨3, _⟩ => ⟨S256x16, .f32⟩
  | .hbm, ⟨4, _⟩ => ⟨S16, .f32⟩
  | .hbm, ⟨5, _⟩ => ⟨S8192x256, .f32⟩
  | .hbm, ⟨6, _⟩ => ⟨S1x256, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S_, .f32⟩
  | .hbm, ⟨12, _⟩ => ⟨S8192x256, .f32⟩
  | .hbm, ⟨13, _⟩ => ⟨S8192x256, .f32⟩
  | .hbm, ⟨14, _⟩ => ⟨S_, .f32⟩
  | .hbm, ⟨15, _⟩ => ⟨S8192x256, .f32⟩
  | .hbm, ⟨16, _⟩ => ⟨S8192x256, .f32⟩
  | .hbm, ⟨17, _⟩ => ⟨S8192x16, .f32⟩
  | .hbm, ⟨18, _⟩ => ⟨S1x16, .f32⟩
  | .hbm, ⟨19, _⟩ => ⟨S8192x16, .f32⟩
  | .hbm, ⟨20, _⟩ => ⟨S8192x16, .f32⟩
  | .hbm, ⟨21, _⟩ => ⟨S_, .f32⟩
  | .hbm, ⟨22, _⟩ => ⟨S8192x16, .f32⟩
  | .hbm, ⟨23, _⟩ => ⟨S8192x16, .f32⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192x1, .f32⟩
  | .hbm, ⟨30, _⟩ => ⟨S8192x16, .f32⟩
  | .hbm, ⟨31, _⟩ => ⟨S8192x16, .f32⟩
  | .hbm, ⟨32, _⟩ => ⟨S8192x16, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x16, .f32⟩
  | .hbm, ⟨37, _⟩ => ⟨S8192x16, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  bcast_S_S8192x16 : S_.BroadcastsInDim S8192x16 (![] : Fin 0 → Fin S8192x16.rank)
  reducesTo_S8192x16_S8192_d1 : S8192x16.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x16_0_1 : S8192x1.BroadcastsInDim S8192x16 (![0, 1] : Fin 2 → Fin S8192x16.rank)
  dot_S8192x2048_S2048x256_S8192x256_1_0_0_1_n_n_wf : DotDims.WF S8192x2048 S2048x256 S8192x256 [1] [0] [0] [1] [] []
  dot_S8192x256_S256x16_S8192x16_1_0_0_1_n_n_wf : DotDims.WF S8192x256 S256x16 S8192x16 [1] [0] [0] [1] [] []

variable [Facts₀]

def dot_S8192x2048_S2048x256_S8192x256_1_0_0_1_n_n : DotDims S8192x2048 S2048x256 S8192x256 where
  lhsContracting := [1]
  rhsContracting := [0]
  lhsNonContracting := [0]
  rhsNonContracting := [1]
  lhsBatch := []
  rhsBatch := []
  wf := dot_S8192x2048_S2048x256_S8192x256_1_0_0_1_n_n_wf
def dot_S8192x256_S256x16_S8192x16_1_0_0_1_n_n : DotDims S8192x256 S256x16 S8192x16 where
  lhsContracting := [1]
  rhsContracting := [0]
  lhsNonContracting := [0]
  rhsNonContracting := [1]
  lhsBatch := []
  rhsBatch := []
  wf := dot_S8192x256_S256x16_S8192x16_1_0_0_1_n_n_wf

class Facts : Prop extends Facts₀ where

variable [Facts]
-- ==== Proof.Spec.lean ====
/-
  The gate of a mixture-of-experts router, one input row at a time.

  A row x of D features goes through a hidden layer of H logistic units,
      hid h = logistic (∑ k, x k · W1(k, h) + b1 h),
  then through a linear layer to E scores,
      logit e = ∑ h, hid h · W2(h, e) + b2 e,
  and the scores are normalised by a softmax shifted by the row's largest score M (the fold of max from minus infinity):
      prob e = exp (logit e − M) / ∑ k, exp (logit k − M).
  Everything is an extended real and every operation the exact one; the quotient is the extended reals' total division.
  Rows do not interact, so a matrix of B rows is treated row by row, whatever B is: the same row functions describe a
  block of rows and the whole matrix.

  Also here: the few facts about single extended reals that let two spellings of these formulas meet — the word of the
  float 1.0 denotes 1, a quotient by 1 is the dividend at every extended real, the maximum of a fold's start value with
  the fold is the fold, and the logistic function is 1 / (1 + exp (−x)) by definition.
-/
import Idealize.ShloMosaic.PureOps.Ideal.Laws
import Idealize.ShloMosaic.Lib.ValueIdx

noncomputable section

open scoped BigOperators

namespace Cert.Gate

open Idealize.ShloMosaic Idealize.ShloMosaic.ValueIdx

variable {B D H E : ℕ}

/-- Hidden unit `h` of a row: the logistic function of the row's product with column `h` of W1, plus the bias. -/
def hiddenRow (xr : Fin D → EReal) (W1 : (⟨2, ![D, H]⟩ : Shape).Idx → EReal) (b1 : Fin H → EReal) (h : Fin H) : EReal :=
  Ideal.logistic ((∑ k : Fin D, xr k * W1 (ix2 k h)) + b1 h)

/-- Score `e` of a row: the hidden units' product with column `e` of W2, plus the bias. -/
def logitRow (xr : Fin D → EReal) (W1 : (⟨2, ![D, H]⟩ : Shape).Idx → EReal) (b1 : Fin H → EReal)
    (W2 : (⟨2, ![H, E]⟩ : Shape).Idx → EReal) (b2 : Fin E → EReal) (e : Fin E) : EReal :=
  (∑ h : Fin H, hiddenRow xr W1 b1 h * W2 (ix2 h e)) + b2 e

/-- The largest of a row's scores, from minus infinity (the word 0xFF800000). -/
def rowTop (sc : Fin E → EReal) : EReal :=
  (Finset.univ : Finset (Fin E)).fold max (Ideal.ofBits .f32 0xFF800000#32) sc

/-- The softmax of a row of scores, shifted by the row's largest score. -/
def softmaxRow (sc : Fin E → EReal) (e : Fin E) : EReal :=
  Ideal.div (Ideal.exp (sc e - rowTop sc)) (∑ k : Fin E, Ideal.exp (sc k - rowTop sc))

/-- The scores of every row of a matrix x [B, D], as an array [B, E]; the biases are vectors [H] and [E]. -/
def logits (x : (⟨2, ![B, D]⟩ : Shape).Idx → EReal) (W1 : (⟨2, ![D, H]⟩ : Shape).Idx → EReal)
    (b1 : (⟨1, ![H]⟩ : Shape).Idx → EReal) (W2 : (⟨2, ![H, E]⟩ : Shape).Idx → EReal)
    (b2 : (⟨1, ![E]⟩ : Shape).Idx → EReal) : (⟨2, ![B, E]⟩ : Shape).Idx → EReal :=
  fun i => logitRow (fun k => x (ix2 (i 0) k)) W1 (fun h => b1 (ix1 h)) W2 (fun e => b2 (ix1 e)) (i 1)

/-- The gate probabilities of every row, as an array [B, E]. -/
def probs (x : (⟨2, ![B, D]⟩ : Shape).Idx → EReal) (W1 : (⟨2, ![D, H]⟩ : Shape).Idx → EReal)
    (b1 : (⟨1, ![H]⟩ : Shape).Idx → EReal) (W2 : (⟨2, ![H, E]⟩ : Shape).Idx → EReal)
    (b2 : (⟨1, ![E]⟩ : Shape).Idx → EReal) : (⟨2, ![B, E]⟩ : Shape).Idx → EReal :=
  fun i => softmaxRow (logitRow (fun k => x (ix2 (i 0) k)) W1 (fun h => b1 (ix1 h)) W2 (fun e => b2 (ix1 e))) (i 1)

theorem logits_apply (x : (⟨2, ![B, D]⟩ : Shape).Idx → EReal) (W1 : (⟨2, ![D, H]⟩ : Shape).Idx → EReal)
    (b1 : (⟨1, ![H]⟩ : Shape).Idx → EReal) (W2 : (⟨2, ![H, E]⟩ : Shape).Idx → EReal)
    (b2 : (⟨1, ![E]⟩ : Shape).Idx → EReal) (r : Fin B) (e : Fin E) :
    logits x W1 b1 W2 b2 (ix2 r e)
      = logitRow (fun k => x (ix2 r k)) W1 (fun h => b1 (ix1 h)) W2 (fun e => b2 (ix1 e)) e := rfl

theorem probs_apply (x : (⟨2, ![B, D]⟩ : Shape).Idx → EReal) (W1 : (⟨2, ![D, H]⟩ : Shape).Idx → EReal)
    (b1 : (⟨1, ![H]⟩ : Shape).Idx → EReal) (W2 : (⟨2, ![H, E]⟩ : Shape).Idx → EReal)
    (b2 : (⟨1, ![E]⟩ : Shape).Idx → EReal) (r : Fin B) (e : Fin E) :
    probs x W1 b1 W2 b2 (ix2 r e)
      = softmaxRow (logitRow (fun k => x (ix2 r k)) W1 (fun h => b1 (ix1 h)) W2 (fun e => b2 (ix1 e))) e := rfl

/-! ## Single extended reals -/

/-- The word of the float 1.0 denotes the real 1. -/
theorem ofBits_one : Ideal.ofBits .f32 0x3F800000#32 = 1 := by
  simp [Ideal.ofBits, Ideal.ieee, -EReal.coe_mul]; norm_num

/-- A quotient by 1 is the dividend, at the infinities too. -/
theorem div_one (x : EReal) : Ideal.div x 1 = x := by
  have h := Ideal.div_coe (one_ne_zero : (1 : ℝ) ≠ 0) x
  rw [EReal.coe_one] at h
  rw [h]
  norm_num

/-- A fold of max is at least its start value, so taking the maximum with the start value once more changes nothing. -/
theorem max_fold_self (z : EReal) (f : Fin E → EReal) :
    max z ((Finset.univ : Finset (Fin E)).fold max z f) = (Finset.univ : Finset (Fin E)).fold max z f :=
  max_eq_right (by rw [Finset.le_fold_max]; exact Or.inl le_rfl)

/-- The logistic function written out with a quotient and an exponential of the negated argument. -/
theorem logistic_expanded (y : EReal) :
    Ideal.div (Ideal.ofBits .f32 0x3F800000#32) (Ideal.ofBits .f32 0x3F800000#32 + Ideal.exp (-y)) = Ideal.logistic y := by
  rw [ofBits_one]; rfl

end Cert.Gate

end
-- ==== Proof.LibDotPlain.lean ====
/-
  The dimension numbers of a plain matrix product — the left operand contracted on its last axis, the right on its
  first, no batch axes — read at an index. At result position (i, q) and contraction position k the left operand is
  read at (i, k) and the right at (k, q); the contraction shape has one axis of the shared extent, so the sum over it
  is the ordinary sum over k of l(i, k) · r(k, q). Both a tiled matrix unit product into a zero accumulator and a host
  dot product then read, at the ideal instance, as that sum, whatever the extents.
-/
import Idealize.ShloMosaic.PureOps.Ideal.Laws
import Idealize.ShloMosaic.Lib.ValueIdx

noncomputable section

open scoped BigOperators

namespace Idealize.ShloMosaic.DotPlain

open Idealize.ShloMosaic Idealize.ShloMosaic.ValueIdx

variable {M K N : Nat} (d : DotDims ⟨2, ![M, K]⟩ ⟨2, ![K, N]⟩ ⟨2, ![M, N]⟩)

/-- The dimension numbers are those of a plain product: [1] × [0] contracted, [0] and [1] kept, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

theorem rank_one (h : IsPlain d) : d.contr.rank = 1 := by rw [d.rank_contr, h.lc]; rfl

theorem size_zero (h : IsPlain d) : d.contr.size ⟨0, by rw [rank_one h]; exact Nat.one_pos⟩ = K := by
  rw [d.size_contr 0 (by rw [h.lc]; exact Nat.one_pos)]
  have e : d.lhsContracting[0]'(by rw [h.lc]; exact Nat.one_pos) = (1 : Fin 2) := by simp [h.lc]
  rw [e]; rfl

/-- The contraction positions are the numbers below the shared extent. -/
def pos (h : IsPlain d) : d.contr.Idx ≃ Fin K := contrEquiv1 d K (rank_one h) (size_zero h)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq e => by subst e; rfl

theorem lhsIdx_row (h : IsPlain d) (j : (⟨2, ![M, N]⟩ : Shape).Idx) (k : d.contr.Idx) :
    (d.lhsIdx j k 0).val = (j 0).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact val_congr j _ _ _ _ (by simp [h.lb, h.ln])

theorem lhsIdx_col (h : IsPlain d) (j : (⟨2, ![M, N]⟩ : Shape).Idx) (k : d.contr.Idx) :
    (d.lhsIdx j k 1).val = (pos h k).val := by
  rw [d.lhsIdx_val_of_single h.lc j k]; rfl

theorem rhsIdx_row (h : IsPlain d) (j : (⟨2, ![M, N]⟩ : Shape).Idx) (k : d.contr.Idx) :
    (d.rhsIdx j k 0).val = (pos h k).val := by
  rw [d.rhsIdx_val_of_single h.rc j k]; rfl

theorem rhsIdx_col (h : IsPlain d) (j : (⟨2, ![M, N]⟩ : Shape).Idx) (k : d.contr.Idx) :
    (d.rhsIdx j k 1).val = (j 1).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

theorem lhsIdx_eq (h : IsPlain d) (j : (⟨2, ![M, N]⟩ : Shape).Idx) (k : d.contr.Idx) :
    d.lhsIdx j k = ix2 (j 0) (pos h k) := by
  funext a; apply Fin.ext
  match a with
  | ⟨0, _⟩ => exact lhsIdx_row h j k
  | ⟨1, _⟩ => exact lhsIdx_col h j k

theorem rhsIdx_eq (h : IsPlain d) (j : (⟨2, ![M, N]⟩ : Shape).Idx) (k : d.contr.Idx) :
    d.rhsIdx j k = ix2 (pos h k) (j 1) := by
  funext a; apply Fin.ext
  match a with
  | ⟨0, _⟩ => exact rhsIdx_row h j k
  | ⟨1, _⟩ => exact rhsIdx_col h j k

/-- THE CONTRACTION SUM of a plain product is the sum over k below the shared extent of l(i, k) · r(k, q). -/
theorem sum_eq (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ k : Fin K, l (ix2 (j 0) k) * r (ix2 k (j 1)) := by
  rw [← Equiv.sum_comp (pos h) (fun k : Fin K => l (ix2 (j 0) k) * r (ix2 k (j 1)))]
  exact Finset.sum_congr rfl fun k _ => by rw [lhsIdx_eq h j k, rhsIdx_eq h j k]; rfl

/-- A matrix unit product into a zero accumulator, at the ideal instance and at an index. -/
theorem matmul_zero_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    matmul d prec l r (constant (F := Ideal) ⟨2, ![M, N]⟩ .f32 0x00000000#32) j = ∑ k : Fin K, l (ix2 (j 0) k) * r (ix2 k (j 1)) :=
  (Ideal.matmul_constant_zero_apply d prec l r j).trans (sum_eq h l r j)

/-- A host dot product, at the ideal instance and at an index. -/
theorem dotGeneral_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    Host.dotGeneral d prec l r j = ∑ k : Fin K, l (ix2 (j 0) k) * r (ix2 k (j 1)) := by
  unfold Host.dotGeneral
  exact (Ideal.dotGeneral_apply d prec _ l r j).trans (sum_eq h l r j)

end Idealize.ShloMosaic.DotPlain

end
-- ==== Proof.LibRowReduce.lean ====
/-
  A matrix reduced along its rows and the result put back beside every entry, read at an index.

  A kernel that normalises the rows of an [a, b] matrix (a softmax, a layer norm over the last axis) reduces it over
  axis 1 to a vector [a], casts the vector to a column [a, 1] and broadcasts the column to [a, b]. At the ideal
  instance and at position (i, c): the broadcast column reads the column at (i, 0), the column reads the vector at i,
  and the vector at i is the sum, or the maximum from the accumulator's value, over k of the matrix at (i, k) — the
  reduced index i with k put back on the dropped axis is (i, k).
-/
import Idealize.ShloMosaic.PureOps.Ideal.Laws
import Idealize.ShloMosaic.Lib.Pipeline.Value
import Idealize.ShloMosaic.Lib.ValueIdx

noncomputable section

open scoped BigOperators

namespace Idealize.ShloMosaic.RowReduce

open Idealize.ShloMosaic Idealize.ShloMosaic.ValueIdx

variable {α : Type}

/-- An [a] vector cast to an [a, 1] column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (i, c), the column at (i, 0). -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- The reduced index i with k put back on the dropped axis 1 is (i, k). -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A sum over the rows' entries: at i, the sum over k of the matrix at (i, k). -/
theorem rowSum_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_row h i k))

/-- A maximum over the rows' entries: at i, the maximum from the accumulator's value over k of the matrix at (i, k). -/
theorem rowMax_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg (fun f => Finset.fold max (Ideal.ofBits φ acc) f Finset.univ) (funext fun k => congrArg src (lift_row h i k)))

end Idealize.ShloMosaic.RowReduce

end
-- ==== Proof.LibSoftmaxRows.lean ====
/-
  A softmax along the rows of a matrix, as a vector program computes it, read at an index.

  For an [a, b] matrix S the program takes each row's maximum (a reduction over axis 1 from minus infinity), casts the
  vector of maxima to a column and broadcasts it back beside every entry, subtracts, exponentiates, takes each row's
  sum of the exponentials the same way (a reduction from zero, a column, a broadcast) and divides. At the ideal
  instance, at position (i, j), this is  exp (S(i, j) − M i) / ∑ k, exp (S(i, k) − M i)  with  M i  the fold of the
  maximum from minus infinity over the entries of row i — the quotient being the extended reals' total division.
-/
import proofs.«175556_g30966714204276_cont_9to1_1263_5_alg».proof.Proof.LibRowReduce

noncomputable section

open scoped BigOperators

namespace Idealize.ShloMosaic.SoftmaxRows

open Idealize.ShloMosaic Idealize.ShloMosaic.ValueIdx

variable {a b : ℕ}

/-- The largest entry of row `i`, from the start word's value. -/
def rowMax (S : FVec Ideal ⟨2, ![a, b]⟩ .f32) (w : BitVec 32) (i : Fin a) : EReal :=
  (Finset.univ : Finset (Fin b)).fold max (Ideal.ofBits .f32 w) (fun k => S (ix2 i k))

/-- Each entry minus its row's maximum, exponentiated — the maxima put back beside every entry through a column. -/
theorem shifted_exp_apply (S : FVec Ideal ⟨2, ![a, b]⟩ .f32) (w : BitVec 32)
    (hr : (⟨2, ![a, b]⟩ : Shape).Reduces [1] (⟨1, ![a]⟩ : Shape)) (hφ : FKind.Formats .f32)
    (hw : w = FKind.maximumf.neutral .f32 hφ)
    (hc : (⟨1, ![a]⟩ : Shape).ShapeCasts ⟨2, ![a, 1]⟩) (hb : (⟨2, ![a, 1]⟩ : Shape).Broadcasts ⟨2, ![a, b]⟩)
    (i : Fin a) (j : Fin b) :
    exp (subf S (broadcastTo ⟨2, ![a, b]⟩ (shapeCast ⟨2, ![a, 1]⟩ (multiReduction .maximumf [1] ⟨1, ![a]⟩ S w hr hφ hw) hc) hb)) (ix2 i j)
      = Ideal.exp (S (ix2 i j) - rowMax S w i) := by
  show Ideal.exp (S (ix2 i j) - broadcastTo ⟨2, ![a, b]⟩ (shapeCast ⟨2, ![a, 1]⟩ (multiReduction .maximumf [1] ⟨1, ![a]⟩ S w hr hφ hw) hc) hb (ix2 i j)) = _
  rw [RowReduce.broadcastTo_a1_ab_apply, RowReduce.shapeCast_a_a1_apply, RowReduce.rowMax_apply]
  rfl

/-- THE SOFTMAX at (i, j): the shifted exponential over the row's sum of shifted exponentials. -/
theorem softmax_apply (S : FVec Ideal ⟨2, ![a, b]⟩ .f32) (w z : BitVec 32)
    (hr : (⟨2, ![a, b]⟩ : Shape).Reduces [1] (⟨1, ![a]⟩ : Shape)) (hφ : FKind.Formats .f32)
    (hw : w = FKind.maximumf.neutral .f32 hφ) (hz : z = FKind.add.neutral .f32 hφ)
    (hc : (⟨1, ![a]⟩ : Shape).ShapeCasts ⟨2, ![a, 1]⟩) (hb : (⟨2, ![a, 1]⟩ : Shape).Broadcasts ⟨2, ![a, b]⟩)
    (i : Fin a) (j : Fin b) :
    divf (exp (subf S (broadcastTo ⟨2, ![a, b]⟩ (shapeCast ⟨2, ![a, 1]⟩ (multiReduction .maximumf [1] ⟨1, ![a]⟩ S w hr hφ hw) hc) hb)))
        (broadcastTo ⟨2, ![a, b]⟩ (shapeCast ⟨2, ![a, 1]⟩
          (multiReduction .add [1] ⟨1, ![a]⟩
            (exp (subf S (broadcastTo ⟨2, ![a, b]⟩ (shapeCast ⟨2, ![a, 1]⟩ (multiReduction .maximumf [1] ⟨1, ![a]⟩ S w hr hφ hw) hc) hb)))
            z hr hφ hz) hc) hb) (ix2 i j)
      = Ideal.div (Ideal.exp (S (ix2 i j) - rowMax S w i)) (∑ k : Fin b, Ideal.exp (S (ix2 i k) - rowMax S w i)) := by
  rw [divf_apply, shifted_exp_apply, RowReduce.broadcastTo_a1_ab_apply, RowReduce.shapeCast_a_a1_apply, RowReduce.rowSum_apply]
  exact congrArg (Ideal.div _) (Finset.sum_congr rfl fun k _ => shifted_exp_apply S w hr hφ hw hc hb i k)

/-- The same with the row's entries NAMED: if row `i` of S is the function `sc`, the softmax at (i, j) is written over `sc` alone. -/
theorem softmax_apply_of_row (S : FVec Ideal ⟨2, ![a, b]⟩ .f32) (w z : BitVec 32)
    (hr : (⟨2, ![a, b]⟩ : Shape).Reduces [1] (⟨1, ![a]⟩ : Shape)) (hφ : FKind.Formats .f32)
    (hw : w = FKind.maximumf.neutral .f32 hφ) (hz : z = FKind.add.neutral .f32 hφ)
    (hc : (⟨1, ![a]⟩ : Shape).ShapeCasts ⟨2, ![a, 1]⟩) (hb : (⟨2, ![a, 1]⟩ : Shape).Broadcasts ⟨2, ![a, b]⟩)
    (i : Fin a) (sc : Fin b → EReal) (hrow : ∀ k : Fin b, S (ix2 i k) = sc k) (j : Fin b) :
    divf (exp (subf S (broadcastTo ⟨2, ![a, b]⟩ (shapeCast ⟨2, ![a, 1]⟩ (multiReduction .maximumf [1] ⟨1, ![a]⟩ S w hr hφ hw) hc) hb)))
        (broadcastTo ⟨2, ![a, b]⟩ (shapeCast ⟨2, ![a, 1]⟩
          (multiReduction .add [1] ⟨1, ![a]⟩
            (exp (subf S (broadcastTo ⟨2, ![a, b]⟩ (shapeCast ⟨2, ![a, 1]⟩ (multiReduction .maximumf [1] ⟨1, ![a]⟩ S w hr hφ hw) hc) hb)))
            z hr hφ hz) hc) hb) (ix2 i j)
      = Ideal.div (Ideal.exp (sc j - (Finset.univ : Finset (Fin b)).fold max (Ideal.ofBits .f32 w) sc))
          (∑ k : Fin b, Ideal.exp (sc k - (Finset.univ : Finset (Fin b)).fold max (Ideal.ofBits .f32 w) sc)) := by
  rw [softmax_apply]
  have hf : (fun k => S (ix2 i k)) = sc := funext hrow
  unfold rowMax
  rw [hf]
  simp only [hrow]

end Idealize.ShloMosaic.SoftmaxRows

end
-- ==== Proof.BodyRows.lean ====
/-
  What the kernel body computes from its blocks, read at one position of the output block.

  The body receives a block of 512 rows of x, the whole of W1 and W2, and the two biases as arrays of one row. Rounding
  to the narrower float format before each matrix product is the identity on extended reals, a matrix product into a
  zero accumulator is the plain sum over the contracted position, a one-row array broadcast down the rows reads its one
  row, and the logistic function is applied entry by entry. So at row p and column e of the block the first stored
  value is the score `Gate.logitRow` of row p of the x block, and the second stored value — the shifted softmax the
  body computes with two row reductions — is `Gate.softmaxRow` of that row of scores.
-/
import proofs.«175556_g30966714204276_cont_9to1_1263_5_alg».proof.Proof.Gen.KernelIdeal.Skeleton
import proofs.«175556_g30966714204276_cont_9to1_1263_5_alg».proof.Proof.Spec
import proofs.«175556_g30966714204276_cont_9to1_1263_5_alg».proof.Proof.LibDotPlain
import proofs.«175556_g30966714204276_cont_9to1_1263_5_alg».proof.Proof.LibSoftmaxRows
import Idealize.ShloMosaic.Lib.ValueLayout

noncomputable section

open scoped BigOperators

namespace Cert.KernelIdeal.BodyRows

open Cert.KernelIdeal Cert.KernelIdeal.Gen Idealize.ShloMosaic Idealize.ShloMosaic.ValueIdx

/-- The first product contracts the last axis of the x block with the first axis of W1. -/
theorem plain1 : DotPlain.IsPlain dot_S512x2048_S2048x256_S512x256_1_0_0_1_n_n := ⟨rfl, rfl, rfl, rfl, rfl, rfl⟩

/-- The second product contracts the hidden axis with the first axis of W2. -/
theorem plain2 : DotPlain.IsPlain dot_S512x256_S256x16_S512x16_1_0_0_1_n_n := ⟨rfl, rfl, rfl, rfl, rfl, rfl⟩

/-- The score block at (p, e) is the score of row p of the x block. -/
theorem scores_apply (P0 : FVec Ideal S512x2048 .f32) (P1 : FVec Ideal S2048x256 .f32) (P2 : FVec Ideal S1x256 .f32)
    (P3 : FVec Ideal S256x16 .f32) (P4 : FVec Ideal S1x16 .f32) (p : Fin 512) (e : Fin 16) :
    k0_pay1 (F := Ideal) P0 P1 P2 P3 P4 (ix2 p e)
      = Gate.logitRow (fun k => P0 (ix2 p k)) P1 (fun h => P2 (ix2 (0 : Fin 1) h)) P3 (fun e => P4 (ix2 (0 : Fin 1) e)) e := by
  unfold k0_pay1 Gate.logitRow
  refine (addf_apply _ _ _).trans (congrArg₂ (· + ·) ?_ ?_)
  · refine (DotPlain.matmul_zero_apply plain2 none _ _ (ix2 p e)).trans (Finset.sum_congr rfl fun h _ => ?_)
    refine congrArg₂ (· * ·) ?_ rfl
    unfold Gate.hiddenRow
    refine congrArg Ideal.logistic ((addf_apply _ _ _).trans (congrArg₂ (· + ·) ?_ ?_))
    · exact DotPlain.matmul_zero_apply plain1 none _ _ (ix2 p h)
    · refine (broadcastTo_1b_ab_apply _ _ p h).trans ?_
      rw [shapeCast_self]
  · refine (broadcastTo_1b_ab_apply _ _ p e).trans ?_
    rw [shapeCast_self]

/-- The probability block at (p, e) is the shifted softmax of row p of the score block. -/
theorem probs_apply (P0 : FVec Ideal S512x2048 .f32) (P1 : FVec Ideal S2048x256 .f32) (P2 : FVec Ideal S1x256 .f32)
    (P3 : FVec Ideal S256x16 .f32) (P4 : FVec Ideal S1x16 .f32) (p : Fin 512) (e : Fin 16) :
    k0_pay2 (F := Ideal) P0 P1 P2 P3 P4 (ix2 p e)
      = Gate.softmaxRow (fun k => k0_pay1 (F := Ideal) P0 P1 P2 P3 P4 (ix2 p k)) e := by
  unfold k0_pay2
  exact SoftmaxRows.softmax_apply_of_row (k0_pay1 (F := Ideal) P0 P1 P2 P3 P4) 0xFF800000#32 0x00000000#32 reduces_S512x16_S512
    (.inl rfl) rfl rfl shapeCasts_S512_S512x1 broadcasts_S512x1_S512x16 p _ (fun _ => rfl) e

/-! ## The same, with the blocks named as parts of whole arrays

If row p of the x block is row r of an array x, the W blocks are the whole W arrays, and the one-row bias blocks hold
the bias vectors, then what the body stores at (p, e) is the gate of the whole arrays at (r, e). -/

theorem scores_of_blocks (P0 : FVec Ideal S512x2048 .f32) (P1 : FVec Ideal S2048x256 .f32) (P2 : FVec Ideal S1x256 .f32)
    (P3 : FVec Ideal S256x16 .f32) (P4 : FVec Ideal S1x16 .f32)
    (x : S8192x2048.Idx → EReal) (W1 : S2048x256.Idx → EReal) (b1 : S256.Idx → EReal) (W2 : S256x16.Idx → EReal)
    (b2 : S16.Idx → EReal) (p : Fin 512) (e : Fin 16) (r : Fin 8192)
    (h0 : ∀ k : Fin 2048, P0 (ix2 p k) = x (ix2 r k)) (h1 : P1 = W1) (h2 : ∀ h : Fin 256, P2 (ix2 (0 : Fin 1) h) = b1 (ix1 h))
    (h3 : P3 = W2) (h4 : ∀ e : Fin 16, P4 (ix2 (0 : Fin 1) e) = b2 (ix1 e)) :
    k0_pay1 (F := Ideal) P0 P1 P2 P3 P4 (ix2 p e) = Gate.logits (B := 8192) (D := 2048) (H := 256) (E := 16) x W1 b1 W2 b2 (ix2 r e) := by
  rw [scores_apply, Gate.logits_apply]
  subst h1 h3
  rw [funext h0, funext h2, funext h4]

theorem probs_of_blocks (P0 : FVec Ideal S512x2048 .f32) (P1 : FVec Ideal S2048x256 .f32) (P2 : FVec Ideal S1x256 .f32)
    (P3 : FVec Ideal S256x16 .f32) (P4 : FVec Ideal S1x16 .f32)
    (x : S8192x2048.Idx → EReal) (W1 : S2048x256.Idx → EReal) (b1 : S256.Idx → EReal) (W2 : S256x16.Idx → EReal)
    (b2 : S16.Idx → EReal) (p : Fin 512) (e : Fin 16) (r : Fin 8192)
    (h0 : ∀ k : Fin 2048, P0 (ix2 p k) = x (ix2 r k)) (h1 : P1 = W1) (h2 : ∀ h : Fin 256, P2 (ix2 (0 : Fin 1) h) = b1 (ix1 h))
    (h3 : P3 = W2) (h4 : ∀ e : Fin 16, P4 (ix2 (0 : Fin 1) e) = b2 (ix1 e)) :
    k0_pay2 (F := Ideal) P0 P1 P2 P3 P4 (ix2 p e) = Gate.probs (B := 8192) (D := 2048) (H := 256) (E := 16) x W1 b1 W2 b2 (ix2 r e) := by
  rw [probs_apply, Gate.probs_apply]
  refine congrArg (fun sc => Gate.softmaxRow sc e) (funext fun k => ?_)
  exact (scores_of_blocks P0 P1 P2 P3 P4 x W1 b1 W2 b2 p k r h0 h1 h2 h3 h4).trans (Gate.logits_apply x W1 b1 W2 b2 r k)

end Cert.KernelIdeal.BodyRows

end
-- ==== Proof.Blocks.lean ====
/-
  From what each grid point writes back to the two result arrays.

  The grid has 16 points. Point t works on rows 512·t … 512·t + 511: its x block is those rows of x, its two output
  blocks are those rows of the two results, and every point sees the whole of W1 and W2 and the biases as one-row arrays
  (each bias vector reshaped to one row before the launch). By the row-by-row reading of the body, the block point t
  writes back is therefore rows 512·t … of `Gate.probs`, respectively `Gate.logits`, of the argument arrays; the 16
  blocks tile the 8192 rows, so after the run each result array is that function of the arguments.
-/
import proofs.«175556_g30966714204276_cont_9to1_1263_5_alg».proof.Proof.Gen.KernelIdeal.Value
import proofs.«175556_g30966714204276_cont_9to1_1263_5_alg».proof.Proof.BodyRows
import Idealize.ShloMosaic.Lib.Pipeline.Value
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block index of every window at every point: the x block and the two output blocks move down with the point,
    every other window stays at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 16 := Nat.lt_of_lt_of_eq t.isLt N_0

/-! ## The input blocks as parts of the argument arrays -/

/-- Row p of the x block at point t is row 512·t + p of x. -/
theorem xblk_apply (c : Dev nD) (t : Fin cfg0.N) (p : Fin 512) (k : Fin 2048) (r : Fin 8192) (hr : r.val = 512 * t.val + p.val) :
    (iblk m c 0 t : Vec Ideal S512x2048 .f32) (ix2 p k) = (m ((c : Thread nD τ).loc main_arg0) : S8192x2048.Idx → EReal) (ix2 r k) := by
  obtain ⟨e0, e1, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * p.val = r.val; rw [e0, hr]; omega
  | ⟨1, _⟩ => show win0_0.index t 1 * 2048 + 1 * k.val = k.val; rw [e1]; omega

/-- The W1 block at every point is the whole of W1. -/
theorem w1blk_eq (c : Dev nD) (t : Fin cfg0.N) :
    (iblk m c 1 t : Vec Ideal S2048x256 .f32) = (m ((c : Thread nD τ).loc main_arg1) : S2048x256.Idx → EReal) := by
  obtain ⟨-, -, e0, e1, -⟩ := idx_facts t
  funext j
  unfold iblk
  rw [View.read_apply]
  show V m c main_arg1 _ = m (c.tc.loc main_arg1) _
  rw [V_main_arg1]
  congr 1
  funext a
  apply Fin.ext
  match a with
  | ⟨0, _⟩ => show win0_1.index t 0 * 2048 + 1 * (j 0).val = (j 0).val; rw [e0]; omega
  | ⟨1, _⟩ => show win0_1.index t 1 * 256 + 1 * (j 1).val = (j 1).val; rw [e1]; omega

/-- The W2 block at every point is the whole of W2. -/
theorem w2blk_eq (c : Dev nD) (t : Fin cfg0.N) :
    (iblk m c 3 t : Vec Ideal S256x16 .f32) = (m ((c : Thread nD τ).loc main_arg3) : S256x16.Idx → EReal) := by
  obtain ⟨-, -, -, -, -, -, e0, e1, -⟩ := idx_facts t
  funext j
  unfold iblk
  rw [View.read_apply]
  show V m c main_arg3 _ = m (c.tc.loc main_arg3) _
  rw [V_main_arg3]
  congr 1
  funext a
  apply Fin.ext
  match a with
  | ⟨0, _⟩ => show win0_3.index t 0 * 256 + 1 * (j 0).val = (j 0).val; rw [e0]; omega
  | ⟨1, _⟩ => show win0_3.index t 1 * 16 + 1 * (j 1).val = (j 1).val; rw [e1]; omega

/-- Before the launch the first bias vector is reshaped to an array of one row. -/
theorem V_b1row (c : Dev nD) :
    (V m c main_call0_v0 : S1x256.Idx → EReal) = shapeCast S1x256 (m ((c : Thread nD τ).loc main_arg2) : S256.Idx → EReal) shapeCasts_S256_S1x256 := by
  dsimp only [Gen.V, Gen.hostOps0]
  after_results
  rfl

/-- Before the launch the second bias vector is reshaped to an array of one row. -/
theorem V_b2row (c : Dev nD) :
    (V m c main_call0_v1 : S1x16.Idx → EReal) = shapeCast S1x16 (m ((c : Thread nD τ).loc main_arg4) : S16.Idx → EReal) shapeCasts_S16_S1x16 := by
  dsimp only [Gen.V, Gen.hostOps0]
  after_results
  rfl

/-- The first bias block's one row holds the first bias vector. -/
theorem b1blk_apply (c : Dev nD) (t : Fin cfg0.N) (h : Fin 256) :
    (iblk m c 2 t : Vec Ideal S1x256 .f32) (ix2 (0 : Fin 1) h) = (m ((c : Thread nD τ).loc main_arg2) : S256.Idx → EReal) (ix1 h) := by
  obtain ⟨-, -, -, -, e0, e1, -⟩ := idx_facts t
  unfold iblk
  rw [View.read_apply]
  show V m c main_call0_v0 _ = _
  rw [V_b1row]
  refine Eq.trans (congrArg _ ?_) (shapeCast_a_1a_apply _ shapeCasts_S256_S1x256 (0 : Fin 1) h)
  funext a
  apply Fin.ext
  match a with
  | ⟨0, _⟩ => show win0_2.index t 0 * 1 + 1 * 0 = 0; rw [e0]
  | ⟨1, _⟩ => show win0_2.index t 1 * 256 + 1 * h.val = h.val; rw [e1]; omega

/-- The second bias block's one row holds the second bias vector. -/
theorem b2blk_apply (c : Dev nD) (t : Fin cfg0.N) (e : Fin 16) :
    (iblk m c 4 t : Vec Ideal S1x16 .f32) (ix2 (0 : Fin 1) e) = (m ((c : Thread nD τ).loc main_arg4) : S16.Idx → EReal) (ix1 e) := by
  obtain ⟨-, -, -, -, -, -, -, -, e0, e1, -⟩ := idx_facts t
  unfold iblk
  rw [View.read_apply]
  show V m c main_call0_v1 _ = _
  rw [V_b2row]
  refine Eq.trans (congrArg _ ?_) (shapeCast_a_1a_apply _ shapeCasts_S16_S1x16 (0 : Fin 1) e)
  funext a
  apply Fin.ext
  match a with
  | ⟨0, _⟩ => show win0_4.index t 0 * 1 + 1 * 0 = 0; rw [e0]
  | ⟨1, _⟩ => show win0_4.index t 1 * 16 + 1 * e.val = e.val; rw [e1]; omega

/-! ## What each point writes back -/

/-- Point t writes back rows 512·t … of the probabilities. -/
theorem flushed_probs (c : Dev nD) (t : Fin cfg0.N) :
    (dats m 0 c).flushed 5 t = ((cfg0.win 5).blk t).view.read (Elt Ideal) (Gate.probs (B := 8192) (D := 2048) (H := 256) (E := 16) (m ((c : Thread nD τ).loc main_arg0)) (m ((c : Thread nD τ).loc main_arg1)) (m ((c : Thread nD τ).loc main_arg2)) (m ((c : Thread nD τ).loc main_arg3)) (m ((c : Thread nD τ).loc main_arg4))) := by
  rw [Value.flushed5]
  unfold out0_5
  rw [View.canon_unit_zero hz]
  simp only [View.ld_unit_zero (S := S512x2048) hz, View.ld_unit_zero (S := S2048x256) hz, View.ld_unit_zero (S := S1x256) hz,
    View.ld_unit_zero (S := S256x16) hz, View.ld_unit_zero (S := S1x16) hz]
  obtain ⟨-, -, -, -, -, -, -, -, -, -, e0, e1, -⟩ := idx_facts t
  have ht := point_lt t
  funext j
  obtain ⟨p, e, rfl⟩ : ∃ (p : Fin 512) (e : Fin 16), j = ix2 p e := ⟨j 0, j 1, eq_ix2 j⟩
  rw [View.read_apply]
  have hemb : ((cfg0.win 5).blk t).view.emb (ix2 p e) = ix2 (⟨512 * t.val + p.val, by omega⟩ : Fin 8192) e := by
    funext a
    apply Fin.ext
    match a with
    | ⟨0, _⟩ => show win0_5.index t 0 * 512 + 1 * p.val = 512 * t.val + p.val; rw [e0]; omega
    | ⟨1, _⟩ => show win0_5.index t 1 * 16 + 1 * e.val = e.val; rw [e1]; omega
  rw [hemb]
  exact BodyRows.probs_of_blocks (iblk m c 0 t) (iblk m c 1 t) (iblk m c 2 t) (iblk m c 3 t) (iblk m c 4 t) _ _ _ _ _ p e
    ⟨512 * t.val + p.val, by omega⟩ (fun k => xblk_apply m c t p k _ rfl) (w1blk_eq m c t) (fun h => b1blk_apply m c t h)
    (w2blk_eq m c t) (fun e => b2blk_apply m c t e)

/-- Point t writes back rows 512·t … of the scores. -/
theorem flushed_scores (c : Dev nD) (t : Fin cfg0.N) :
    (dats m 0 c).flushed 6 t = ((cfg0.win 6).blk t).view.read (Elt Ideal) (Gate.logits (B := 8192) (D := 2048) (H := 256) (E := 16) (m ((c : Thread nD τ).loc main_arg0)) (m ((c : Thread nD τ).loc main_arg1)) (m ((c : Thread nD τ).loc main_arg2)) (m ((c : Thread nD τ).loc main_arg3)) (m ((c : Thread nD τ).loc main_arg4))) := by
  rw [Value.flushed6]
  unfold out0_6
  rw [View.canon_unit_zero hz]
  simp only [View.ld_unit_zero (S := S512x2048) hz, View.ld_unit_zero (S := S2048x256) hz, View.ld_unit_zero (S := S1x256) hz,
    View.ld_unit_zero (S := S256x16) hz, View.ld_unit_zero (S := S1x16) hz]
  obtain ⟨-, -, -, -, -, -, -, -, -, -, -, -, e0, e1⟩ := idx_facts t
  have ht := point_lt t
  funext j
  obtain ⟨p, e, rfl⟩ : ∃ (p : Fin 512) (e : Fin 16), j = ix2 p e := ⟨j 0, j 1, eq_ix2 j⟩
  rw [View.read_apply]
  have hemb : ((cfg0.win 6).blk t).view.emb (ix2 p e) = ix2 (⟨512 * t.val + p.val, by omega⟩ : Fin 8192) e := by
    funext a
    apply Fin.ext
    match a with
    | ⟨0, _⟩ => show win0_6.index t 0 * 512 + 1 * p.val = 512 * t.val + p.val; rw [e0]; omega
    | ⟨1, _⟩ => show win0_6.index t 1 * 16 + 1 * e.val = e.val; rw [e1]; omega
  rw [hemb]
  exact BodyRows.scores_of_blocks (iblk m c 0 t) (iblk m c 1 t) (iblk m c 2 t) (iblk m c 3 t) (iblk m c 4 t) _ _ _ _ _ p e
    ⟨512 * t.val + p.val, by omega⟩ (fun k => xblk_apply m c t p k _ rfl) (w1blk_eq m c t) (fun h => b1blk_apply m c t h)
    (w2blk_eq m c t) (fun e => b2blk_apply m c t e)

/-! ## The blocks tile the result arrays -/

theorem mem_blk5 (t : Fin cfg0.N) (i : S8192x16.Idx) :
    i ∈ ((cfg0.win 5).blk t).view.set ↔ ∀ a : Fin 2, win0_5.index t a * S512x16.size a ≤ (i a).val ∧ (i a).val < win0_5.index t a * S512x16.size a + S512x16.size a := by
  show i ∈ ((View.whole main_v0_0).slice (win0_5.rect t)).set ↔ _
  rw [View.set_slice_whole, Rect.mem_set_unit]
  exact Iff.rfl

theorem mem_blk6 (t : Fin cfg0.N) (i : S8192x16.Idx) :
    i ∈ ((cfg0.win 6).blk t).view.set ↔ ∀ a : Fin 2, win0_6.index t a * S512x16.size a ≤ (i a).val ∧ (i a).val < win0_6.index t a * S512x16.size a + S512x16.size a := by
  show i ∈ ((View.whole main_v0_1).slice (win0_6.rect t)).set ↔ _
  rw [View.set_slice_whole, Rect.mem_set_unit]
  exact Iff.rfl

/-- Row r of a result lies in the block of point r / 512. -/
theorem cover5 (i : S8192x16.Idx) : ∃ t : Fin cfg0.N, (cfg0.win 5).flush t = true ∧ i ∈ ((cfg0.win 5).blk t).view.set := by
  have hi0 : (i 0).val < 8192 := (i 0).isLt
  have hi1 : (i 1).val < 16 := (i 1).isLt
  have hN : cfg0.N = 16 := N_0
  have hq : (i 0).val / 512 < cfg0.N := by rw [hN]; omega
  obtain ⟨-, -, -, -, -, -, -, -, -, -, e0, e1, -⟩ := idx_facts ⟨(i 0).val / 512, hq⟩
  refine ⟨⟨(i 0).val / 512, hq⟩, flush0_5 _, ?_⟩
  rw [mem_blk5]
  intro a
  match a with
  | ⟨0, _⟩ =>
    show win0_5.index ⟨(i 0).val / 512, hq⟩ 0 * 512 ≤ (i 0).val ∧ (i 0).val < win0_5.index ⟨(i 0).val / 512, hq⟩ 0 * 512 + 512
    rw [e0]; show (i 0).val / 512 * 512 ≤ (i 0).val ∧ (i 0).val < (i 0).val / 512 * 512 + 512; omega
  | ⟨1, _⟩ =>
    show win0_5.index ⟨(i 0).val / 512, hq⟩ 1 * 16 ≤ (i 1).val ∧ (i 1).val < win0_5.index ⟨(i 0).val / 512, hq⟩ 1 * 16 + 16
    rw [e1]; omega

theorem cover6 (i : S8192x16.Idx) : ∃ t : Fin cfg0.N, (cfg0.win 6).flush t = true ∧ i ∈ ((cfg0.win 6).blk t).view.set := by
  have hi0 : (i 0).val < 8192 := (i 0).isLt
  have hi1 : (i 1).val < 16 := (i 1).isLt
  have hN : cfg0.N = 16 := N_0
  have hq : (i 0).val / 512 < cfg0.N := by rw [hN]; omega
  obtain ⟨-, -, -, -, -, -, -, -, -, -, -, -, e0, e1⟩ := idx_facts ⟨(i 0).val / 512, hq⟩
  refine ⟨⟨(i 0).val / 512, hq⟩, flush0_6 _, ?_⟩
  rw [mem_blk6]
  intro a
  match a with
  | ⟨0, _⟩ =>
    show win0_6.index ⟨(i 0).val / 512, hq⟩ 0 * 512 ≤ (i 0).val ∧ (i 0).val < win0_6.index ⟨(i 0).val / 512, hq⟩ 0 * 512 + 512
    rw [e0]; show (i 0).val / 512 * 512 ≤ (i 0).val ∧ (i 0).val < (i 0).val / 512 * 512 + 512; omega
  | ⟨1, _⟩ =>
    show win0_6.index ⟨(i 0).val / 512, hq⟩ 1 * 16 ≤ (i 1).val ∧ (i 1).val < win0_6.index ⟨(i 0).val / 512, hq⟩ 1 * 16 + 16
    rw [e1]; omega

/-! ## The result arrays after the run -/

theorem final_probs (c : Dev nD) : (dats m 0 c).arrAt 5 cfg0.N = Gate.probs (B := 8192) (D := 2048) (H := 256) (E := 16) (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 _ (fun t _ => flushed_probs m c t) cover5

theorem final_scores (c : Dev nD) : (dats m 0 c).arrAt 6 cfg0.N = Gate.logits (B := 8192) (D := 2048) (H := 256) (E := 16) (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 6 _ (fun t _ => flushed_scores m c t) cover6

/-- The kernel's run: every weakly fair execution ends with the first result at the gate probabilities of the
    arguments, the second at the scores, and the arguments unchanged. -/
theorem run : θ_run defs (onTc (τ := τ) (main (F := Ideal))) ⟨m, fun _ => 0, ρ⟩ fun r => ∀ c : Dev nD,
      r.2.mem ((c : Thread nD τ).loc main_v0_0) = Gate.probs (B := 8192) (D := 2048) (H := 256) (E := 16) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_1) = Gate.logits (B := 8192) (D := 2048) (H := 256) (E := 16) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_probs m c), (h c).2.1.trans (final_scores m c), (h c).2.2⟩)
    (Value.run_blocks m ρ)

end Cert.KernelIdeal.Blocks

end
-- ==== Proof.RefRows.lean ====
/-
  The reference program, one operation after the other, is the gate of `Gate` read row by row.

  Its hidden layer is written 1 / (1 + exp (−y)), which is the logistic function by definition; its scores are divided
  by a temperature of 1 before the softmax, which changes nothing at any extended real; the row's largest score is a
  reduction from minus infinity followed by one more maximum with minus infinity, again no change; the sum of the
  exponentials starts from 0. Its biases are vectors broadcast first to one row and then down the rows.
-/
import proofs.«175556_g30966714204276_cont_9to1_1263_5_alg».proof.Proof.Gen.ReferenceIdeal.Read
import proofs.«175556_g30966714204276_cont_9to1_1263_5_alg».proof.Proof.Spec
import proofs.«175556_g30966714204276_cont_9to1_1263_5_alg».proof.Proof.LibRowReduce

noncomputable section

open scoped BigOperators

namespace Cert.ReferenceIdeal.RefRows

open Cert.ReferenceIdeal Cert.ReferenceIdeal.Gen Cert.ReferenceIdeal.Read Idealize.ShloMosaic Idealize.ShloMosaic.ValueIdx

/-! ## Where each operation reads its operands, in coordinates -/

theorem lidx0 (r : Fin 8192) (h : Fin 256) (k : Fin 2048) : lidx_main_v0 (ix2 r h) k = ix2 r k :=
  funext fun a => Fin.ext (by match a with | ⟨0, _⟩ => rfl | ⟨1, _⟩ => rfl)
theorem ridx0 (r : Fin 8192) (h : Fin 256) (k : Fin 2048) : ridx_main_v0 (ix2 r h) k = ix2 k h :=
  funext fun a => Fin.ext (by match a with | ⟨0, _⟩ => rfl | ⟨1, _⟩ => rfl)
theorem bias1 (r : Fin 8192) (h : Fin 256) : idx_main_v1 (idx_main_v2 (ix2 r h)) = ix1 h :=
  funext fun a => Fin.ext (by match a with | ⟨0, _⟩ => rfl)
theorem lidx10 (r : Fin 8192) (e : Fin 16) (h : Fin 256) : lidx_main_v10 (ix2 r e) h = ix2 r h :=
  funext fun a => Fin.ext (by match a with | ⟨0, _⟩ => rfl | ⟨1, _⟩ => rfl)
theorem ridx10 (r : Fin 8192) (e : Fin 16) (h : Fin 256) : ridx_main_v10 (ix2 r e) h = ix2 h e :=
  funext fun a => Fin.ext (by match a with | ⟨0, _⟩ => rfl | ⟨1, _⟩ => rfl)
theorem bias2 (r : Fin 8192) (e : Fin 16) : idx_main_v11 (idx_main_v12 (ix2 r e)) = ix1 e :=
  funext fun a => Fin.ext (by match a with | ⟨0, _⟩ => rfl)
theorem top_idx (r : Fin 8192) (e : Fin 16) : idx_main_v19 (idx_main_v20 (ix2 r e)) = ix1 r :=
  funext fun a => Fin.ext (by match a with | ⟨0, _⟩ => rfl)
theorem sum_idx (r : Fin 8192) (e : Fin 16) : idx_main_v24 (idx_main_v25 (ix2 r e)) = ix1 r :=
  funext fun a => Fin.ext (by match a with | ⟨0, _⟩ => rfl)
theorem term_idx (r : Fin 8192) (k : Fin 16) : idx_main_v23 (ix1 r) k = ix2 r k :=
  funext fun a => Fin.ext (by match a with | ⟨0, _⟩ => rfl | ⟨1, _⟩ => rfl)

/-! ## The stages -/

/-- The hidden layer at (r, h): 1 / (1 + exp (−y)) is the logistic function of y. -/
theorem hidden_apply (x0 : (⟨S8192x2048, .f32⟩ : BufTy).Contents (Elt Ideal)) (x1 : (⟨S2048x256, .f32⟩ : BufTy).Contents (Elt Ideal)) (x2 : (⟨S256, .f32⟩ : BufTy).Contents (Elt Ideal)) (r : Fin 8192) (h : Fin 256) :
    val_main_v9 (F := Ideal) x0 x1 x2 (ix2 r h) = Gate.hiddenRow (fun k => x0 (ix2 r k)) x1 (fun h => x2 (ix1 h)) h := by
  rw [val_main_v9_apply, val_main_v8_apply, val_main_cst_0_apply, val_main_v7_apply, val_main_v6_apply, val_main_cst_apply,
    val_main_v5_apply, val_main_v4_apply, val_main_v3_apply, val_main_v0_apply, val_main_v2_apply, val_main_v1_apply]
  simp only [lidx0, ridx0, bias1]
  exact Gate.logistic_expanded _

/-- The scores at (r, e). -/
theorem scores_apply (x0 : (⟨S8192x2048, .f32⟩ : BufTy).Contents (Elt Ideal)) (x1 : (⟨S2048x256, .f32⟩ : BufTy).Contents (Elt Ideal)) (x2 : (⟨S256, .f32⟩ : BufTy).Contents (Elt Ideal)) (x3 : (⟨S256x16, .f32⟩ : BufTy).Contents (Elt Ideal)) (x4 : (⟨S16, .f32⟩ : BufTy).Contents (Elt Ideal)) (r : Fin 8192) (e : Fin 16) :
    val_main_v13 (F := Ideal) x0 x1 x2 x3 x4 (ix2 r e)
      = Gate.logitRow (fun k => x0 (ix2 r k)) x1 (fun h => x2 (ix1 h)) x3 (fun e => x4 (ix1 e)) e := by
  rw [val_main_v13_apply, val_main_v10_apply, val_main_v12_apply, val_main_v11_apply]
  simp only [lidx10, ridx10, bias2, hidden_apply]
  rfl

/-- Dividing the scores by the temperature 1 leaves them as they are. -/
theorem tempered_apply (x0 : (⟨S8192x2048, .f32⟩ : BufTy).Contents (Elt Ideal)) (x1 : (⟨S2048x256, .f32⟩ : BufTy).Contents (Elt Ideal)) (x2 : (⟨S256, .f32⟩ : BufTy).Contents (Elt Ideal)) (x3 : (⟨S256x16, .f32⟩ : BufTy).Contents (Elt Ideal)) (x4 : (⟨S16, .f32⟩ : BufTy).Contents (Elt Ideal)) (i : S8192x16.Idx) :
    val_main_v15 (F := Ideal) x0 x1 x2 x3 x4 i = val_main_v13 (F := Ideal) x0 x1 x2 x3 x4 i := by
  rw [val_main_v15_apply, val_main_v14_apply, val_main_cst_1_apply]
  exact (congrArg (Ideal.div _) Gate.ofBits_one).trans (Gate.div_one _)

theorem hred : S8192x16.Reduces [1] S8192 := by decide

/-- The row's largest score: the reduction from minus infinity, and one more maximum with minus infinity. -/
theorem top_apply (x0 : (⟨S8192x2048, .f32⟩ : BufTy).Contents (Elt Ideal)) (x1 : (⟨S2048x256, .f32⟩ : BufTy).Contents (Elt Ideal)) (x2 : (⟨S256, .f32⟩ : BufTy).Contents (Elt Ideal)) (x3 : (⟨S256x16, .f32⟩ : BufTy).Contents (Elt Ideal)) (x4 : (⟨S16, .f32⟩ : BufTy).Contents (Elt Ideal)) (r : Fin 8192) :
    val_main_v18 (F := Ideal) x0 x1 x2 x3 x4 (ix1 r)
      = Gate.rowTop (fun k : Fin 16 => val_main_v13 (F := Ideal) x0 x1 x2 x3 x4 (ix2 r k)) := by
  rw [val_main_v18_apply, val_main_v17_apply, val_main_cst_3_apply]
  unfold val_main_v16
  rw [Host.reduce_eq_fold_single FloatOps.maximumf _ _ reducesTo_S8192x16_S8192_d1 hred h_S_]
  have hf : (val_main_v15 (F := Ideal) x0 x1 x2 x3 x4 ∘ hred.lift (ix1 r))
      = fun k : Fin 16 => val_main_v13 (F := Ideal) x0 x1 x2 x3 x4 (ix2 r k) :=
    funext fun k => (tempered_apply x0 x1 x2 x3 x4 _).trans (congrArg _ (RowReduce.lift_row hred r k))
  refine (congrArg (fun f => max (Ideal.ofBits .f32 0xFF800000#32)
    (Finset.fold max (Ideal.ofBits .f32 0xFF800000#32) f Finset.univ)) hf).trans ?_
  exact Gate.max_fold_self _ _

/-- The shifted exponential at (r, e). -/
theorem shifted_apply (x0 : (⟨S8192x2048, .f32⟩ : BufTy).Contents (Elt Ideal)) (x1 : (⟨S2048x256, .f32⟩ : BufTy).Contents (Elt Ideal)) (x2 : (⟨S256, .f32⟩ : BufTy).Contents (Elt Ideal)) (x3 : (⟨S256x16, .f32⟩ : BufTy).Contents (Elt Ideal)) (x4 : (⟨S16, .f32⟩ : BufTy).Contents (Elt Ideal)) (r : Fin 8192) (e : Fin 16) :
    val_main_v22 (F := Ideal) x0 x1 x2 x3 x4 (ix2 r e)
      = Ideal.exp (val_main_v13 (F := Ideal) x0 x1 x2 x3 x4 (ix2 r e)
          - Gate.rowTop (fun k : Fin 16 => val_main_v13 (F := Ideal) x0 x1 x2 x3 x4 (ix2 r k))) := by
  rw [val_main_v22_apply, val_main_v21_apply, val_main_v20_apply, val_main_v19_apply, top_idx, top_apply, tempered_apply]
  rfl

/-- The probabilities at (r, e): the shifted softmax of the row of scores. -/
theorem probs_apply (x0 : (⟨S8192x2048, .f32⟩ : BufTy).Contents (Elt Ideal)) (x1 : (⟨S2048x256, .f32⟩ : BufTy).Contents (Elt Ideal)) (x2 : (⟨S256, .f32⟩ : BufTy).Contents (Elt Ideal)) (x3 : (⟨S256x16, .f32⟩ : BufTy).Contents (Elt Ideal)) (x4 : (⟨S16, .f32⟩ : BufTy).Contents (Elt Ideal)) (r : Fin 8192) (e : Fin 16) :
    val_main_v26 (F := Ideal) x0 x1 x2 x3 x4 (ix2 r e)
      = Gate.softmaxRow (fun k : Fin 16 => val_main_v13 (F := Ideal) x0 x1 x2 x3 x4 (ix2 r k)) e := by
  rw [val_main_v26_apply, val_main_v25_apply, val_main_v24_apply, sum_idx, val_main_v23_apply, val_main_cst_4_apply]
  simp only [term_idx, shifted_apply]
  unfold Gate.softmaxRow
  refine congrArg (Ideal.div _) ?_
  rw [Ideal.ofBits_def, Ideal.ofBits_zero_f32, zero_add]

/-! ## The two results as whole arrays -/

/-- The reference's scores are `Gate.logits` of its arguments. -/
theorem scores_eq (x0 : (⟨S8192x2048, .f32⟩ : BufTy).Contents (Elt Ideal)) (x1 : (⟨S2048x256, .f32⟩ : BufTy).Contents (Elt Ideal)) (x2 : (⟨S256, .f32⟩ : BufTy).Contents (Elt Ideal)) (x3 : (⟨S256x16, .f32⟩ : BufTy).Contents (Elt Ideal)) (x4 : (⟨S16, .f32⟩ : BufTy).Contents (Elt Ideal)) :
    val_main_v13 (F := Ideal) x0 x1 x2 x3 x4 = Gate.logits (B := 8192) (D := 2048) (H := 256) (E := 16) x0 x1 x2 x3 x4 := by
  funext i
  obtain ⟨r, e, rfl⟩ : ∃ (r : Fin 8192) (e : Fin 16), i = ix2 r e := ⟨i 0, i 1, eq_ix2 i⟩
  exact scores_apply x0 x1 x2 x3 x4 r e

/-- The reference's probabilities are `Gate.probs` of its arguments. -/
theorem probs_eq (x0 : (⟨S8192x2048, .f32⟩ : BufTy).Contents (Elt Ideal)) (x1 : (⟨S2048x256, .f32⟩ : BufTy).Contents (Elt Ideal)) (x2 : (⟨S256, .f32⟩ : BufTy).Contents (Elt Ideal)) (x3 : (⟨S256x16, .f32⟩ : BufTy).Contents (Elt Ideal)) (x4 : (⟨S16, .f32⟩ : BufTy).Contents (Elt Ideal)) :
    val_main_v26 (F := Ideal) x0 x1 x2 x3 x4 = Gate.probs (B := 8192) (D := 2048) (H := 256) (E := 16) x0 x1 x2 x3 x4 := by
  funext i
  obtain ⟨r, e, rfl⟩ : ∃ (r : Fin 8192) (e : Fin 16), i = ix2 r e := ⟨i 0, i 1, eq_ix2 i⟩
  rw [probs_apply, Gate.probs_apply]
  exact congrArg (fun sc => Gate.softmaxRow sc e) (funext fun k => scores_apply x0 x1 x2 x3 x4 r k)

end Cert.ReferenceIdeal.RefRows

end
-- ==== Proof.lean ====
/-
  The router gate kernel against its reference, over the extended reals.

  Both programs compute, for every row of x,
      hid = logistic (x · W1 + b1),   logits = hid · W2 + b2,   probs = softmax (logits),
  and return (probs, logits). The kernel does it 512 rows at a time with both matrix products, the logistic function
  and the shifted softmax fused; the reference does it on whole arrays, spelling the logistic function as
  1 / (1 + exp (−y)), dividing the scores by a temperature of 1 and taking one more maximum with minus infinity. On the
  extended reals with exact operations these are the same function of the arguments at every value, the infinities
  included (`Cert.Gate`): rounding to a narrower format is the identity, a matrix product is the plain sum over the
  contracted position, a quotient by 1 is the dividend, and a fold of max already dominates its start value. No
  finiteness of the inputs is used.

  `Blocks` reads the kernel's run as that function (what each grid point writes back, the blocks tiling the results),
  `RefRows` reads the reference's run as the same function one operation at a time, and the claims below put the two
  runs side by side. The idealized kernel is the kernel's own text read at the ideal instance, so nothing is owed for it.
-/
import proofs.«175556_g30966714204276_cont_9to1_1263_5_alg».proof.Defs
import proofs.«175556_g30966714204276_cont_9to1_1263_5_alg».proof.Proof.Gen.Kernel
import proofs.«175556_g30966714204276_cont_9to1_1263_5_alg».proof.Proof.Gen.Kernel.Frame
import proofs.«175556_g30966714204276_cont_9to1_1263_5_alg».proof.Proof.Gen.KernelIdeal
import proofs.«175556_g30966714204276_cont_9to1_1263_5_alg».proof.Proof.Gen.KernelIdeal.Frame
import proofs.«175556_g30966714204276_cont_9to1_1263_5_alg».proof.Proof.Gen.KernelIdeal.Value
import proofs.«175556_g30966714204276_cont_9to1_1263_5_alg».proof.Proof.Gen.ReferenceIdeal
import proofs.«175556_g30966714204276_cont_9to1_1263_5_alg».proof.Proof.Gen.ReferenceIdeal.Run
import proofs.«175556_g30966714204276_cont_9to1_1263_5_alg».proof.Proof.Gen.ReferenceIdeal.Read
import proofs.«175556_g30966714204276_cont_9to1_1263_5_alg».proof.Proof.Gen.Pre_finite_inputs
import proofs.«175556_g30966714204276_cont_9to1_1263_5_alg».proof.Proof.Blocks
import proofs.«175556_g30966714204276_cont_9to1_1263_5_alg».proof.Proof.RefRows
import Idealize.ShloMosaic.Adequacy
import Idealize.ShloMosaic.Init

noncomputable section

namespace Cert.Proof

open Idealize.ShloMosaic Idealize.ShloMosaic.TcCoe Idealize.SL.Sem

/-- The kernel, word by word, runs to the end and leaves its arguments as they were. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference's run, with its results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From arguments that agree, the kernel ends with (probs, logits) of `Cert.Gate` and so does the reference. -/
theorem algebraic : Cert.algebraic_KernelIdeal_ReferenceIdeal := by
  intro m ρ m' ρ' _ hagree
  refine ⟨_, _, Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v26_eq, Cert.ReferenceIdeal.RefRows.probs_eq,
      (hagree c).1, (hagree c).2.1, (hagree c).2.2.1, (hagree c).2.2.2.1, (hagree c).2.2.2.2]
  · rw [Cert.ReferenceIdeal.Read.val_main_v13_eq, Cert.ReferenceIdeal.RefRows.scores_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
